-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S2048x4x512 : Shape := ⟨3, ![2048, 4, 512]⟩
abbrev S2048x4x1x512 : Shape := ⟨4, ![2048, 4, 1, 512]⟩
abbrev S2048x4x4x512 : Shape := ⟨4, ![2048, 4, 4, 512]⟩
abbrev S2048x8192 : Shape := ⟨2, ![2048, 8192]⟩
abbrev S4x512 : Shape := ⟨2, ![4, 512]⟩
abbrev S4x1x512 : Shape := ⟨3, ![4, 1, 512]⟩
abbrev S4x4x512 : Shape := ⟨3, ![4, 4, 512]⟩
abbrev S8192 : Shape := ⟨1, ![8192]⟩
abbrev S512x2048 : Shape := ⟨2, ![512, 2048]⟩
abbrev S512x512 : Shape := ⟨2, ![512, 512]⟩
abbrev S1x2048 : Shape := ⟨2, ![1, 2048]⟩

abbrev nBuf : Space → Nat
  | .hbm => 51
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x4x512, .f32⟩
  | .hbm, ⟨16, _⟩ => ⟨S2048x4x512, .f32⟩
  | .hbm, ⟨17, _⟩ => ⟨S2048x4x512, .f32⟩
  | .hbm, ⟨18, _⟩ => ⟨S2048x4x512, .f32⟩
  | .hbm, ⟨19, _⟩ => ⟨S2048x4x1x512, .f32⟩
  | .hbm, ⟨20, _⟩ => ⟨S2048x4x1x512, .f32⟩
  | .hbm, ⟨21, _⟩ => ⟨S2048x4x1x512, .f32⟩
  | .hbm, ⟨22, _⟩ => ⟨S2048x4x1x512, .f32⟩
  | .hbm, ⟨23, _⟩ => ⟨S2048x4x4x512, .f32⟩
  | .hbm, ⟨24, _⟩ => ⟨S2048x8192, .f32⟩
  | .hbm, ⟨25, _⟩ => ⟨S2048x8192, .bf16⟩
  | .hbm, ⟨26, _⟩ => ⟨S2048x4x512, .f32⟩
  | .hbm, ⟨27, _⟩ => ⟨S2048x4x512, .f32⟩
  | .hbm, ⟨28, _⟩ => ⟨S2048x4x512, .f32⟩
  | .hbm, ⟨29, _⟩ => ⟨S2048x4x512, .f32⟩
  | .hbm, ⟨30, _⟩ => ⟨S2048x4x1x512, .f32⟩
  | .hbm, ⟨31, _⟩ => ⟨S2048x4x1x512, .f32⟩
  | .hbm, ⟨32, _⟩ => ⟨S2048x4x1x512, .f32⟩
  | .hbm, ⟨33, _⟩ => ⟨S2048x4x1x512, .f32⟩
  | .hbm, ⟨34, _⟩ => ⟨S2048x4x4x512, .f32⟩
  | .hbm, ⟨35, _⟩ => ⟨S2048x8192, .f32⟩
  | .hbm, ⟨36, _⟩ => ⟨S2048x8192, .bf16⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S4x512, .f32⟩
  | .hbm, ⟨41, _⟩ => ⟨S4x1x512, .f32⟩
  | .hbm, ⟨42, _⟩ => ⟨S4x1x512, .f32⟩
  | .hbm, ⟨43, _⟩ => ⟨S4x1x512, .f32⟩
  | .hbm, ⟨44, _⟩ => ⟨S4x1x512, .f32⟩
  | .hbm, ⟨45, _⟩ => ⟨S4x4x512, .f32⟩
  | .hbm, ⟨46, _⟩ => ⟨S8192, .f32⟩
  | .hbm, ⟨47, _⟩ => ⟨S4096x2048, .bf16⟩
  | .hbm, ⟨48, _⟩ => ⟨S4096x2048, .bf16⟩
  | .hbm, ⟨49, _⟩ => ⟨S4096x2048, .f32⟩
  | .hbm, ⟨50, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S2048, .f32⟩
  | .local _ .vmem, ⟨9, _⟩ => ⟨S2048, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S2048x2048_S2048x4x512 : S2048x2048.ShapeCasts S2048x4x512
  bcast_S2048x4x512_S2048x4x1x512_0_1_3 : S2048x4x512.BroadcastsInDim S2048x4x1x512 (![0, 1, 3] : Fin 3 → Fin S2048x4x1x512.rank)
  concatenates_S2048x4x1x512_S2048x4x1x512_S2048x4x1x512_S2048x4x1x512_S2048x4x4x512_d2 : Shape.Concatenates [S2048x4x1x512, S2048x4x1x512, S2048x4x1x512, S2048x4x1x512] S2048x4x4x512 2
  shapeCasts_S2048x4x4x512_S2048x8192 : S2048x4x4x512.ShapeCasts S2048x8192
  bitsLt_bf16_f32 : FTy.bits .bf16 < FTy.bits .f32
  shapeCasts_S2048_S4x512 : S2048.ShapeCasts S4x512
  bcast_S4x512_S4x1x512_0_2 : S4x512.BroadcastsInDim S4x1x512 (![0, 2] : Fin 2 → Fin S4x1x512.rank)
  concatenates_S4x1x512_S4x1x512_S4x1x512_S4x1x512_S4x4x512_d1 : Shape.Concatenates [S4x1x512, S4x1x512, S4x1x512, S4x1x512] S4x4x512 1
  shapeCasts_S4x4x512_S8192 : S4x4x512.ShapeCasts S8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  inb_S512x512_S512x512_0_0 : ∀ a, (![0, 0] : Fin 2 → Nat) a + S512x512.size a ≤ S512x512.size a
  h_S512x512 : 0 < S512x512.numel
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x8192.size a
  hwx0_2 : ∀ i : grid0.Coords, EltTy.bits .bf16 = 32 ∨ (Rect.block (s := S2048x8192) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x8192.size a
  hwx0_3 : ∀ i : grid0.Coords, EltTy.bits .bf16 = 32 ∨ (Rect.block (s := S2048x8192) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S8192.size a
  hwx0_4 : ∀ i : grid0.Coords, EltTy.bits .f32 = 32 ∨ (Rect.block (s := S8192) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x2048.size a
  hwx0_5 : ∀ i : grid0.Coords, EltTy.bits .f32 = 32 ∨ (Rect.block (s := S4096x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x2048.size a
  hwx0_6 : ∀ i : grid0.Coords, EltTy.bits .f32 = 32 ∨ (Rect.block (s := S4096x2048) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x2048.size a
  hwx0_7 : ∀ i : grid0.Coords, EltTy.bits .f32 = 32 ∨ (Rect.block (s := S4096x2048) S512x512.size (cc0_transform_7 i) (hinb0_7 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v32) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellFrameBits.lean ====
/-
  The frame of the LSTM-cell kernel program: @main is 34 host operations that re-lay the eight weight matrices
  and the four biases gate-chunk by gate-chunk (reshape, insert a unit axis, concatenate the four gates, flatten,
  narrow the float format), narrow x and h, and then ONE pipelined region over a 4 × 8 grid (gate-feature chunk
  n outermost, batch chunk i innermost).  At every grid point the body loads six whole input blocks
  (x rows, h rows, the x-side and h-side weight column blocks, the bias block, the c tile), computes, and stores
  two whole 512 × 512 tiles (h_new, c_new); it keeps nothing between points.

  What is shown here, at any float instance F: every weakly fair execution of @main terminates without a fault,
  the fifteen argument arrays end as they were launched, and each output array ends at the blocks the body wrote
  (the run's post names them: the second half of this certificate reads the values off it).
-/
import proofs.«122361_j21088289423624_2_alg».proof.Proof.Gen.Kernel.Launch
import proofs.«122361_j21088289423624_2_alg».proof.Proof.Gen.Kernel.Skeleton
import proofs.«122361_j21088289423624_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: the launch memory after the 34 host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! Every host operation writes a fresh intermediate buffer, never an argument: the region finds each argument
    array as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point — fetched there, or, where the block
    index did not move since the previous point (the weight and bias windows along the inner batch axis), still
    there from before —, for any proof data over the region-entry arrays whose body leaves the inputs in place. -/
theorem held0_of {c : Dev nD} (dat : Dat τ (Elt F) Unit ℕ (UR sig nD τ) ℕ cfg0 c) (hA : dat.A 0 = entry m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = entry m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = entry m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = entry m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = entry m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5_of {c : Dev nD} (dat : Dat τ (Elt F) Unit ℕ (UR sig nD τ) ℕ cfg0 c) (hA : dat.A 5 = entry m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From a run of the pipeline to the frame claim -/

/-- For any proof data over the region-entry arrays, a run ending in the pipeline library's frame post leaves every
    argument array as launched: c (the one argument a window stages) by the library's reading of a staged input,
    the other fourteen because no window touches them; each is then the launch contents by `entry_main_argK`. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 5).trans (((dats 0 c).arrAt_in 5 rfl _).trans ((hA c 5).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c)⟩) h

/-! ## The body's accesses: every load and store is of a whole staging buffer -/

abbrev rRows : Rect S512x2048 := Rect.unit (s := S512x2048) ![0, 0] S512x2048.size inb_S512x2048_S512x2048_0_0
abbrev rWeights : Rect S2048x2048 := Rect.unit (s := S2048x2048) ![0, 0] S2048x2048.size inb_S2048x2048_S2048x2048_0_0
abbrev rBias : Rect S2048 := Rect.unit (s := S2048) ![0] S2048.size inb_S2048_S2048_0
abbrev rTile : Rect S512x512 := Rect.unit (s := S512x512) ![0, 0] S512x512.size inb_S512x512_S512x512_0_0

/-! ## What the body leaves in the two output tiles -/

/-- The h_new tile after the body: its one store, o · tanh(c_new), of the six input blocks. -/
def hTile (x0 : Vec F S512x2048 .bf16) (x1 : Vec F S512x2048 .bf16) (x2 : Vec F S2048x2048 .bf16) (x3 : Vec F S2048x2048 .bf16) (x4 : Vec F S2048 .f32) (x5 : Vec F S512x512 .f32) : Vec F S512x512 .f32 :=
  View.canon [⟨rTile, k0_pay3 (View.ld x0 rRows) (View.ld x2 rWeights) (View.ld x1 rRows) (View.ld x3 rWeights) (View.ld x4 rBias) (View.ld x5 rTile)⟩]

/-- The c_new tile after the body: its one store, f · c + i · ĉ, of the six input blocks. -/
def cTile (x0 : Vec F S512x2048 .bf16) (x1 : Vec F S512x2048 .bf16) (x2 : Vec F S2048x2048 .bf16) (x3 : Vec F S2048x2048 .bf16) (x4 : Vec F S2048 .f32) (x5 : Vec F S512x512 .f32) : Vec F S512x512 .f32 :=
  View.canon [⟨rTile, k0_pay2 (View.ld x0 rRows) (View.ld x2 rWeights) (View.ld x1 rRows) (View.ld x3 rWeights) (View.ld x4 rBias) (View.ld x5 rTile)⟩]

/-- One whole-tile store covers the tile. -/
theorem tile_cover (p0 : Vec F S512x512 .f32) (y : S512x512.Idx) :
    ∃ pc ∈ ([⟨rTile, p0⟩] : List (View.Piece (Elt F) S512x512 .f32)), y ∈ pc.1.set :=
  View.cover_of_tiled [⟨rTile, p0⟩] S512x512.size (by rfl) y

/-! ## The body's triple -/

set_option maxHeartbeats 1000000 in
/-- The body, run on whole staging memrefs with the six inputs at read contents and the two outputs at anything, ends
    with the inputs as they were and the outputs at `hTile` / `cTile` of the inputs. -/
theorem sound_kernel (c : Dev nD) (E : Set ℕ) (i : grid0.Coords) (a0 : Memref sig .tc .vmem S512x2048 .bf16) (ha0 : a0.IsWhole) (a1 : Memref sig .tc .vmem S512x2048 .bf16) (ha1 : a1.IsWhole) (a2 : Memref sig .tc .vmem S2048x2048 .bf16) (ha2 : a2.IsWhole) (a3 : Memref sig .tc .vmem S2048x2048 .bf16) (ha3 : a3.IsWhole) (a4 : Memref sig .tc .vmem S2048 .f32) (ha4 : a4.IsWhole) (a5 : Memref sig .tc .vmem S512x512 .f32) (ha5 : a5.IsWhole) (a6 : Memref sig .tc .vmem S512x512 .f32) (ha6 : a6.IsWhole) (a7 : Memref sig .tc .vmem S512x512 .f32) (ha7 : a7.IsWhole)
    (x0 : Vec F S512x2048 .bf16) (x1 : Vec F S512x2048 .bf16) (x2 : Vec F S2048x2048 .bf16) (x3 : Vec F S2048x2048 .bf16) (x4 : Vec F S2048 .f32) (x5 : Vec F S512x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (hTile x0 x1 x2 x3 x4 x5) ∗ owns (c : Thread nD τ) a7 fullShare (cTile x0 x1 x2 x3 x4 x5)) -∗ K ⟨⟩))
      ⊢ wp frame (wpE (defs₀ (F := F)) Variants.none c none) E (cc0__lstm_kernel i a0 ha0 a1 ha1 a2 ha2 a3 ha3 a4 ha4 a5 ha5 a6 ha6 a7 ha7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_cover _)
  iexists _; isplitr
  swap; · iexact H7
  ipureintro
  exact View.read_writes_eq_canon _ _ _ (tile_cover _)

/-! ## The pipeline's proof data -/

/-- On core `c`: the arrays as the region finds them; after the body at point `t` each input's buffer still at its
    block and the two outputs' at `hTile` / `cTile` of the six input blocks; the invariant is the scoped rest and the
    generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hTile (iblk m c 0 t) (iblk m c 1 t) (iblk m c 2 t) (iblk m c 3 t) (iblk m c 4 t) (iblk m c 5 t)
    | ⟨7, _⟩ => cTile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hTile (iblk m c 0 t) (iblk m c 1 t) (iblk m c 2 t) (iblk m c 3 t) (iblk m c 4 t) (iblk m c 5 t) := by dsimp only [dats]
theorem after7 (c : Dev nD) (t : Fin cfg0.N) : (dats m 0 c).after 7 t = cTile (iblk m c 0 t) (iblk m c 1 t) (iblk m c 2 t) (iblk m c 3 t) (iblk m c 4 t) (iblk m c 5 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d
theorem held3 (c : Dev nD) (t : Fin cfg0.N) (d) : (dats m 0 c).before 3 t d = iblk m c 3 t :=
  held3_of m (dats m 0 c) (A_eq m c 3) (after3 m c) t d
theorem held4 (c : Dev nD) (t : Fin cfg0.N) (d) : (dats m 0 c).before 4 t d = iblk m c 4 t :=
  held4_of m (dats m 0 c) (A_eq m c 4) (after4 m c) t d
theorem held5 (c : Dev nD) (t : Fin cfg0.N) (d) : (dats m 0 c).before 5 t d = iblk m c 5 t :=
  held5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates without a fault, and
    ends with every array of the pipeline at what the proof data's blocks make it and every other unscoped buffer
    as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The frame claim of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.CellFrameIdeal.lean ====
/-
  The frame of the LSTM-cell kernel program: @main is 34 host operations that re-lay the eight weight matrices
  and the four biases gate-chunk by gate-chunk (reshape, insert a unit axis, concatenate the four gates, flatten,
  narrow the float format), narrow x and h, and then ONE pipelined region over a 4 × 8 grid (gate-feature chunk
  n outermost, batch chunk i innermost).  At every grid point the body loads six whole input blocks
  (x rows, h rows, the x-side and h-side weight column blocks, the bias block, the c tile), computes, and stores
  two whole 512 × 512 tiles (h_new, c_new); it keeps nothing between points.

  What is shown here, at any float instance F: every weakly fair execution of @main terminates without a fault,
  the fifteen argument arrays end as they were launched, and each output array ends at the blocks the body wrote
  (the run's post names them: the second half of this certificate reads the values off it).
-/
import proofs.«122361_j21088289423624_2_alg».proof.Proof.Gen.KernelIdeal.Launch
import proofs.«122361_j21088289423624_2_alg».proof.Proof.Gen.KernelIdeal.Skeleton
import proofs.«122361_j21088289423624_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: the launch memory after the 34 host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! Every host operation writes a fresh intermediate buffer, never an argument: the region finds each argument
    array as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_main_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point — fetched there, or, where the block
    index did not move since the previous point (the weight and bias windows along the inner batch axis), still
    there from before —, for any proof data over the region-entry arrays whose body leaves the inputs in place. -/
theorem held0_of {c : Dev nD} (dat : Dat τ (Elt F) Unit ℕ (UR sig nD τ) ℕ cfg0 c) (hA : dat.A 0 = entry m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = entry m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = entry m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = entry m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = entry m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5_of {c : Dev nD} (dat : Dat τ (Elt F) Unit ℕ (UR sig nD τ) ℕ cfg0 c) (hA : dat.A 5 = entry m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From a run of the pipeline to the frame claim -/

/-- For any proof data over the region-entry arrays, a run ending in the pipeline library's frame post leaves every
    argument array as launched: c (the one argument a window stages) by the library's reading of a staged input,
    the other fourteen because no window touches them; each is then the launch contents by `entry_main_argK`. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 5).trans (((dats 0 c).arrAt_in 5 rfl _).trans ((hA c 5).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c)⟩) h

/-! ## The body's accesses: every load and store is of a whole staging buffer -/

abbrev rRows : Rect S512x2048 := Rect.unit (s := S512x2048) ![0, 0] S512x2048.size inb_S512x2048_S512x2048_0_0
abbrev rWeights : Rect S2048x2048 := Rect.unit (s := S2048x2048) ![0, 0] S2048x2048.size inb_S2048x2048_S2048x2048_0_0
abbrev rBias : Rect S2048 := Rect.unit (s := S2048) ![0] S2048.size inb_S2048_S2048_0
abbrev rTile : Rect S512x512 := Rect.unit (s := S512x512) ![0, 0] S512x512.size inb_S512x512_S512x512_0_0

/-! ## What the body leaves in the two output tiles -/

/-- The h_new tile after the body: its one store, o · tanh(c_new), of the six input blocks. -/
def hTile (x0 : Vec F S512x2048 .bf16) (x1 : Vec F S512x2048 .bf16) (x2 : Vec F S2048x2048 .bf16) (x3 : Vec F S2048x2048 .bf16) (x4 : Vec F S2048 .f32) (x5 : Vec F S512x512 .f32) : Vec F S512x512 .f32 :=
  View.canon [⟨rTile, k0_pay3 (View.ld x0 rRows) (View.ld x2 rWeights) (View.ld x1 rRows) (View.ld x3 rWeights) (View.ld x4 rBias) (View.ld x5 rTile)⟩]

/-- The c_new tile after the body: its one store, f · c + i · ĉ, of the six input blocks. -/
def cTile (x0 : Vec F S512x2048 .bf16) (x1 : Vec F S512x2048 .bf16) (x2 : Vec F S2048x2048 .bf16) (x3 : Vec F S2048x2048 .bf16) (x4 : Vec F S2048 .f32) (x5 : Vec F S512x512 .f32) : Vec F S512x512 .f32 :=
  View.canon [⟨rTile, k0_pay2 (View.ld x0 rRows) (View.ld x2 rWeights) (View.ld x1 rRows) (View.ld x3 rWeights) (View.ld x4 rBias) (View.ld x5 rTile)⟩]

/-- One whole-tile store covers the tile. -/
theorem tile_cover (p0 : Vec F S512x512 .f32) (y : S512x512.Idx) :
    ∃ pc ∈ ([⟨rTile, p0⟩] : List (View.Piece (Elt F) S512x512 .f32)), y ∈ pc.1.set :=
  View.cover_of_tiled [⟨rTile, p0⟩] S512x512.size (by rfl) y

/-! ## The body's triple -/

set_option maxHeartbeats 1000000 in
/-- The body, run on whole staging memrefs with the six inputs at read contents and the two outputs at anything, ends
    with the inputs as they were and the outputs at `hTile` / `cTile` of the inputs. -/
theorem sound_kernel (c : Dev nD) (E : Set ℕ) (i : grid0.Coords) (a0 : Memref sig .tc .vmem S512x2048 .bf16) (ha0 : a0.IsWhole) (a1 : Memref sig .tc .vmem S512x2048 .bf16) (ha1 : a1.IsWhole) (a2 : Memref sig .tc .vmem S2048x2048 .bf16) (ha2 : a2.IsWhole) (a3 : Memref sig .tc .vmem S2048x2048 .bf16) (ha3 : a3.IsWhole) (a4 : Memref sig .tc .vmem S2048 .f32) (ha4 : a4.IsWhole) (a5 : Memref sig .tc .vmem S512x512 .f32) (ha5 : a5.IsWhole) (a6 : Memref sig .tc .vmem S512x512 .f32) (ha6 : a6.IsWhole) (a7 : Memref sig .tc .vmem S512x512 .f32) (ha7 : a7.IsWhole)
    (x0 : Vec F S512x2048 .bf16) (x1 : Vec F S512x2048 .bf16) (x2 : Vec F S2048x2048 .bf16) (x3 : Vec F S2048x2048 .bf16) (x4 : Vec F S2048 .f32) (x5 : Vec F S512x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (hTile x0 x1 x2 x3 x4 x5) ∗ owns (c : Thread nD τ) a7 fullShare (cTile x0 x1 x2 x3 x4 x5)) -∗ K ⟨⟩))
      ⊢ wp frame (wpE (defs₀ (F := F)) Variants.none c none) E (cc0__lstm_kernel i a0 ha0 a1 ha1 a2 ha2 a3 ha3 a4 ha4 a5 ha5 a6 ha6 a7 ha7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_cover _)
  iexists _; isplitr
  swap; · iexact H7
  ipureintro
  exact View.read_writes_eq_canon _ _ _ (tile_cover _)

/-! ## The pipeline's proof data -/

/-- On core `c`: the arrays as the region finds them; after the body at point `t` each input's buffer still at its
    block and the two outputs' at `hTile` / `cTile` of the six input blocks; the invariant is the scoped rest and the
    generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hTile (iblk m c 0 t) (iblk m c 1 t) (iblk m c 2 t) (iblk m c 3 t) (iblk m c 4 t) (iblk m c 5 t)
    | ⟨7, _⟩ => cTile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hTile (iblk m c 0 t) (iblk m c 1 t) (iblk m c 2 t) (iblk m c 3 t) (iblk m c 4 t) (iblk m c 5 t) := by dsimp only [dats]
theorem after7 (c : Dev nD) (t : Fin cfg0.N) : (dats m 0 c).after 7 t = cTile (iblk m c 0 t) (iblk m c 1 t) (iblk m c 2 t) (iblk m c 3 t) (iblk m c 4 t) (iblk m c 5 t) := by dsimp only [dats]

theorem held0 (c : Dev nD) (t : Fin cfg0.N) (d) : (dats m 0 c).before 0 t d = iblk m c 0 t :=
  held0_of m (dats m 0 c) (A_eq m c 0) (after0 m c) t d
theorem held1 (c : Dev nD) (t : Fin cfg0.N) (d) : (dats m 0 c).before 1 t d = iblk m c 1 t :=
  held1_of m (dats m 0 c) (A_eq m c 1) (after1 m c) t d
theorem held2 (c : Dev nD) (t : Fin cfg0.N) (d) : (dats m 0 c).before 2 t d = iblk m c 2 t :=
  held2_of m (dats m 0 c) (A_eq m c 2) (after2 m c) t d
theorem held3 (c : Dev nD) (t : Fin cfg0.N) (d) : (dats m 0 c).before 3 t d = iblk m c 3 t :=
  held3_of m (dats m 0 c) (A_eq m c 3) (after3 m c) t d
theorem held4 (c : Dev nD) (t : Fin cfg0.N) (d) : (dats m 0 c).before 4 t d = iblk m c 4 t :=
  held4_of m (dats m 0 c) (A_eq m c 4) (after4 m c) t d
theorem held5 (c : Dev nD) (t : Fin cfg0.N) (d) : (dats m 0 c).before 5 t d = iblk m c 5 t :=
  held5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates without a fault, and
    ends with every array of the pipeline at what the proof data's blocks make it and every other unscoped buffer
    as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The frame claim of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.LibConcatFour.lean ====
/-
  A concatenation of FOUR pieces of one shape along an axis, read at an index: the entry whose coordinate on
  the joined axis is g · K + a (K the pieces' extent on that axis, a < K) is piece g's entry at the same other
  coordinates and at a on the axis.
-/
import Idealize.ShloMosaic.Lib.Pipeline.Value

noncomputable section

namespace ConcatFour

open Idealize.ShloMosaic

variable {α : Type}

/-- Piece `g` of four, read through the concatenation. -/
theorem apply {t s : Shape} (a : Fin t.rank) (x : Fin 4 → s.Idx → α)
    (h : Shape.Concatenates [s, s, s, s] t a) (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, x 0⟩, ⟨s, x 1⟩, ⟨s, x 2⟩, ⟨s, x 3⟩] h j = x g i := by
  have hl : ∀ k, k < 4 → k < ([⟨s, x 0⟩, ⟨s, x 1⟩, ⟨s, x 2⟩, ⟨s, x 3⟩] : List ((s : Shape) × (s.Idx → α))).length := fun k hk => hk
  match g, ha with
  | ⟨0, _⟩, ha =>
    exact concatenate_apply_piece a [⟨s, x 0⟩, ⟨s, x 1⟩, ⟨s, x 2⟩, ⟨s, x 3⟩] h j 0 (hl 0 (by omega)) s (x 0) rfl hr 0 (by simp) i hi (by simpa using ha)
  | ⟨1, _⟩, ha =>
    exact concatenate_apply_piece a [⟨s, x 0⟩, ⟨s, x 1⟩, ⟨s, x 2⟩, ⟨s, x 3⟩] h j 1 (hl 1 (by omega)) s (x 1) rfl hr K (by simp [dif_pos hr, hK]) i hi (by simpa using ha)
  | ⟨2, _⟩, ha =>
    exact concatenate_apply_piece a [⟨s, x 0⟩, ⟨s, x 1⟩, ⟨s, x 2⟩, ⟨s, x 3⟩] h j 2 (hl 2 (by omega)) s (x 2) rfl hr (K + K) (by simp [dif_pos hr, hK]) i hi (by simp at ha; omega)
  | ⟨3, _⟩, ha =>
    exact concatenate_apply_piece a [⟨s, x 0⟩, ⟨s, x 1⟩, ⟨s, x 2⟩, ⟨s, x 3⟩] h j 3 (hl 3 (by omega)) s (x 3) rfl hr (K + K + K) (by simp [dif_pos hr, hK, Nat.add_assoc]) i hi (by simp at ha; omega)

end ConcatFour

end
-- ==== Proof.CellEntry.lean ====
/-
  What the 34 host operations in front of the region make of the weights and biases.

  Each side's four gate matrices W_g (2048 × 2048) are cut into four chunks of 512 columns, and the chunks are
  laid side by side chunk-major, gate-minor: column n · 2048 + g · 512 + q of the re-laid 2048 × 8192 array is
  column n · 512 + q of W_g (reshape to [2048, 4, 512], a unit axis inserted, the four gates joined along it,
  flattened).  The four biases are re-laid the same way into one vector of 8192.  x and h only change float
  format.  A change of format is the identity at the exact instance, so each re-laid entry IS an entry of an
  argument.
-/
import proofs.«122361_j21088289423624_2_alg».proof.Proof.CellFrameIdeal
import proofs.«122361_j21088289423624_2_alg».proof.Proof.LibConcatFour
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Cert.KernelIdeal.Cell
open Idealize.ShloMosaic Idealize.ShloMosaic.TcCoe Idealize.SL.Sem Idealize.ShloMosaic.StableHlo Idealize.ShloMosaic.ValueIdx

variable {F : FTy → Type} [FloatOps F]

/-- One gate's matrix with its columns split into chunks and a unit gate axis inserted. -/
def chunked (w : (⟨S2048x2048, .f32⟩ : BufTy).Contents (Elt F)) : (⟨S2048x4x1x512, .f32⟩ : BufTy).Contents (Elt F) :=
  broadcastInDim S2048x4x1x512 ![0, 1, 3] bcast_S2048x4x512_S2048x4x1x512_0_1_3 (shapeCast S2048x4x512 w shapeCasts_S2048x2048_S2048x4x512)

/-- The four gates' matrices re-laid chunk-major, gate-minor, in the narrow format. -/
def relaidW (w0 w1 w2 w3 : (⟨S2048x2048, .f32⟩ : BufTy).Contents (Elt F)) : (⟨S2048x8192, .bf16⟩ : BufTy).Contents (Elt F) :=
  truncf .bf16 (shapeCast S2048x8192 (concatenate S2048x4x4x512 2 [⟨S2048x4x1x512, chunked w0⟩, ⟨S2048x4x1x512, chunked w1⟩, ⟨S2048x4x1x512, chunked w2⟩, ⟨S2048x4x1x512, chunked w3⟩]
    concatenates_S2048x4x1x512_S2048x4x1x512_S2048x4x1x512_S2048x4x1x512_S2048x4x4x512_d2) shapeCasts_S2048x4x4x512_S2048x8192) bitsLt_bf16_f32

/-- One gate's bias split into chunks with a unit gate axis inserted. -/
def chunkedB (b : (⟨S2048, .f32⟩ : BufTy).Contents (Elt F)) : (⟨S4x1x512, .f32⟩ : BufTy).Contents (Elt F) :=
  broadcastInDim S4x1x512 ![0, 2] bcast_S4x512_S4x1x512_0_2 (shapeCast S4x512 b shapeCasts_S2048_S4x512)

/-- The four biases re-laid chunk-major, gate-minor. -/
def relaidB (b0 b1 b2 b3 : (⟨S2048, .f32⟩ : BufTy).Contents (Elt F)) : (⟨S8192, .f32⟩ : BufTy).Contents (Elt F) :=
  shapeCast S8192 (concatenate S4x4x512 1 [⟨S4x1x512, chunkedB b0⟩, ⟨S4x1x512, chunkedB b1⟩, ⟨S4x1x512, chunkedB b2⟩, ⟨S4x1x512, chunkedB b3⟩]
    concatenates_S4x1x512_S4x1x512_S4x1x512_S4x1x512_S4x4x512_d1) shapeCasts_S4x4x512_S8192

variable (m : (ℓ : Loc nD τ sig) → Buf (Elt F) ℓ)

/-! ## The arrays the region finds -/

/-- The x-side weights: input, forget, candidate, output gate. -/
theorem entry_wx (c : Dev nD) :
    (entry m c main_v10 : S2048x8192.Idx → Elt F .bf16) = relaidW (m ((c : Thread nD τ).loc main_arg3)) (m ((c : Thread nD τ).loc main_arg5))
      (m ((c : Thread nD τ).loc main_arg9)) (m ((c : Thread nD τ).loc main_arg7)) := by
  dsimp only [entry, hostOps0]; after_results; rfl

/-- The h-side weights, in the same gate order. -/
theorem entry_wh (c : Dev nD) :
    (entry m c main_v21 : S2048x8192.Idx → Elt F .bf16) = relaidW (m ((c : Thread nD τ).loc main_arg4)) (m ((c : Thread nD τ).loc main_arg6))
      (m ((c : Thread nD τ).loc main_arg10)) (m ((c : Thread nD τ).loc main_arg8)) := by
  dsimp only [entry, hostOps0]; after_results; rfl

/-- The biases, in the same gate order. -/
theorem entry_b (c : Dev nD) :
    (entry m c main_v31 : S8192.Idx → Elt F .f32) = relaidB (m ((c : Thread nD τ).loc main_arg11)) (m ((c : Thread nD τ).loc main_arg12))
      (m ((c : Thread nD τ).loc main_arg14)) (m ((c : Thread nD τ).loc main_arg13)) := by
  dsimp only [entry, hostOps0]; after_results; rfl

/-- x in the narrow format. -/
theorem entry_x (c : Dev nD) :
    (entry m c main_v32 : S4096x2048.Idx → Elt F .bf16) = truncf .bf16 (m ((c : Thread nD τ).loc main_arg0)) bitsLt_bf16_f32 := by
  dsimp only [entry, hostOps0]; after_results

/-- h in the narrow format. -/
theorem entry_h (c : Dev nD) :
    (entry m c main_v33 : S4096x2048.Idx → Elt F .bf16) = truncf .bf16 (m ((c : Thread nD τ).loc main_arg1)) bitsLt_bf16_f32 := by
  dsimp only [entry, hostOps0]; after_results

/-! ## Their entries, at the exact instance -/

/-- A chunked gate matrix at (k, chunk n, ·, q) is the matrix at (k, n · 512 + q). -/
theorem chunked_apply (w : (⟨2, ![2048, 2048]⟩ : Shape).Idx → EReal) (k : Fin 2048) (n : Fin 4) (q : Fin 512) (j : Fin 2048)
    (hj : j.val = n.val * 512 + q.val) :
    chunked (F := Ideal) w (ix4 k n (0 : Fin 1) q) = w (ix2 k j) := by
  unfold chunked
  refine (broadcastInDim_apply _ _ _ (ix4 k n (0 : Fin 1) q) (ix3 k n q) ?_).trans ?_
  · intro a
    match a with
    | ⟨0, _⟩ => exact (if_neg (show ¬((2048 : ℕ) = 1) by decide)).symm
    | ⟨1, _⟩ => exact (if_neg (show ¬((4 : ℕ) = 1) by decide)).symm
    | ⟨2, _⟩ => exact (if_neg (show ¬((512 : ℕ) = 1) by decide)).symm
  · refine shapeCast_apply _ _ (ix3 k n q) (ix2 k j) ?_
    rw [Shape.rowMajor_val_two, Shape.rowMajor_val_three]
    show k.val * 2048 + j.val = (k.val * 4 + n.val) * 512 + q.val
    omega

/-- The re-laid weights at (k, n · 2048 + g · 512 + q): gate g's matrix at (k, n · 512 + q). -/
theorem relaidW_apply (w : Fin 4 → (⟨2, ![2048, 2048]⟩ : Shape).Idx → EReal) (k : Fin 2048) (n g : Fin 4) (q : Fin 512)
    (col : Fin 8192) (hcol : col.val = n.val * 2048 + g.val * 512 + q.val) (j : Fin 2048) (hj : j.val = n.val * 512 + q.val) :
    relaidW (F := Ideal) (w 0) (w 1) (w 2) (w 3) (ix2 k col) = w g (ix2 k j) := by
  unfold relaidW
  refine (truncf_apply (ψ := .bf16) _ bitsLt_bf16_f32 (ix2 k col)).trans ?_
  refine (shapeCast_apply _ _ (ix2 k col) (ix4 k n g q) ?_).trans ?_
  · rw [Shape.rowMajor_val_two, Shape.rowMajor_val_four]
    show ((k.val * 4 + n.val) * 4 + g.val) * 512 + q.val = k.val * 8192 + col.val
    omega
  refine (ConcatFour.apply (t := S2048x4x4x512) (s := S2048x4x1x512) (2 : Fin 4) (fun g => chunked (F := Ideal) (w g)) _ rfl 1 rfl
    (ix4 k n g q) g (ix4 k n (0 : Fin 1) q) ?_ ?_).trans ?_
  · intro b hb
    match b, hb with
    | ⟨0, _⟩, _ => rfl
    | ⟨1, _⟩, _ => rfl
    | ⟨2, _⟩, hb => exact absurd rfl hb
    | ⟨3, _⟩, _ => rfl
  · show g.val * 1 + 0 = g.val
    omega
  exact chunked_apply (w g) k n q j hj

/-- A chunked bias at (chunk n, ·, q) is the bias at n · 512 + q. -/
theorem chunkedB_apply (b : (⟨1, ![2048]⟩ : Shape).Idx → EReal) (n : Fin 4) (q : Fin 512) (j : Fin 2048)
    (hj : j.val = n.val * 512 + q.val) :
    chunkedB (F := Ideal) b (ix3 n (0 : Fin 1) q) = b (ix1 j) := by
  unfold chunkedB
  refine (broadcastInDim_apply _ _ _ (ix3 n (0 : Fin 1) q) (ix2 n q) ?_).trans ?_
  · intro a
    match a with
    | ⟨0, _⟩ => exact (if_neg (show ¬((4 : ℕ) = 1) by decide)).symm
    | ⟨1, _⟩ => exact (if_neg (show ¬((512 : ℕ) = 1) by decide)).symm
  · refine shapeCast_apply _ _ (ix2 n q) (ix1 j) ?_
    rw [Shape.rowMajor_val_one, Shape.rowMajor_val_two]
    show j.val = n.val * 512 + q.val
    exact hj

/-- The re-laid biases at n · 2048 + g · 512 + q: gate g's bias at n · 512 + q. -/
theorem relaidB_apply (b : Fin 4 → (⟨1, ![2048]⟩ : Shape).Idx → EReal) (n g : Fin 4) (q : Fin 512)
    (col : Fin 8192) (hcol : col.val = n.val * 2048 + g.val * 512 + q.val) (j : Fin 2048) (hj : j.val = n.val * 512 + q.val) :
    relaidB (F := Ideal) (b 0) (b 1) (b 2) (b 3) (ix1 col) = b g (ix1 j) := by
  unfold relaidB
  refine (shapeCast_apply _ _ (ix1 col) (ix3 n g q) ?_).trans ?_
  · rw [Shape.rowMajor_val_one, Shape.rowMajor_val_three]
    show (n.val * 4 + g.val) * 512 + q.val = col.val
    omega
  refine (ConcatFour.apply (t := S4x4x512) (s := S4x1x512) (1 : Fin 3) (fun g => chunkedB (F := Ideal) (b g)) _ rfl 1 rfl
    (ix3 n g q) g (ix3 n (0 : Fin 1) q) ?_ ?_).trans ?_
  · intro a ha
    match a, ha with
    | ⟨0, _⟩, _ => rfl
    | ⟨1, _⟩, ha => exact absurd rfl ha
    | ⟨2, _⟩, _ => rfl
  · show g.val * 1 + 0 = g.val
    omega
  exact chunkedB_apply (b g) n q j hj

end Cert.KernelIdeal.Entry

end
-- ==== Proof.CellSpec.lean ====
/-
  One LSTM cell step as a function of its arrays, entry by entry, over the extended reals.

  For a batch row r and a hidden feature j, each of the four gates has the pre-activation
      z(r, j) = (∑ k, x(r, k) · Wx(k, j) + ∑ k, h(r, k) · Wh(k, j)) + b(j),
  with its own pair of weight matrices and its own bias.  With σ the logistic function,
      c'(r, j) = σ(z_f) · c(r, j) + σ(z_i) · tanh(z_c),        h'(r, j) = σ(z_o) · tanh(c'(r, j)).
  Both programs of this certificate compute exactly these two arrays; the association of the sums above is
  the one both use, so nothing here needs an entry to be finite.
-/
import Idealize.ShloMosaic.PureOps.Ideal
import Idealize.ShloMosaic.Lib.ValueIdx

noncomputable section

namespace LstmCell

open Idealize.ShloMosaic Idealize.ShloMosaic.ValueIdx

/-- x, h, c and the two results: 4096 batch rows by 2048 features. -/
abbrev Act : Shape := ⟨2, ![4096, 2048]⟩
/-- One gate's weight matrix: 2048 inputs by 2048 hidden features. -/
abbrev Wt : Shape := ⟨2, ![2048, 2048]⟩
/-- One gate's bias. -/
abbrev Bs : Shape := ⟨1, ![2048]⟩

/-- A gate's pre-activation at batch row `r`, feature `j`. -/
def pre (x h : Act.Idx → EReal) (wx wh : Wt.Idx → EReal) (b : Bs.Idx → EReal) (r : Fin 4096) (j : Fin 2048) : EReal :=
  ((∑ k : Fin 2048, x (ix2 r k) * wx (ix2 k j)) + ∑ k : Fin 2048, h (ix2 r k) * wh (ix2 k j)) + b (ix1 j)

/-- The new cell state from the three pre-activations it depends on and the old state. -/
def cellOf (zi zf zc cOld : EReal) : EReal :=
  Ideal.logistic zf * cOld + Ideal.logistic zi * Ideal.tanh zc

/-- The new hidden state from the output gate's pre-activation and the new cell state. -/
def hiddenOf (zo cNew : EReal) : EReal :=
  Ideal.logistic zo * Ideal.tanh cNew

/-- The twelve parameter arrays: per gate (input, forget, cell candidate, output) the x-side and h-side weights and the bias. -/
structure Params where
  wxi : Wt.Idx → EReal
  whi : Wt.Idx → EReal
  bi : Bs.Idx → EReal
  wxf : Wt.Idx → EReal
  whf : Wt.Idx → EReal
  bf : Bs.Idx → EReal
  wxc : Wt.Idx → EReal
  whc : Wt.Idx → EReal
  bc : Bs.Idx → EReal
  wxo : Wt.Idx → EReal
  who : Wt.Idx → EReal
  bo : Bs.Idx → EReal

/-- c' at (r, j), from the old cell state's entry there. -/
def cNewAt (x h : Act.Idx → EReal) (P : Params) (cOld : EReal) (r : Fin 4096) (j : Fin 2048) : EReal :=
  cellOf (pre x h P.wxi P.whi P.bi r j) (pre x h P.wxf P.whf P.bf r j) (pre x h P.wxc P.whc P.bc r j) cOld

/-- h' at (r, j), from the old cell state's entry there. -/
def hNewAt (x h : Act.Idx → EReal) (P : Params) (cOld : EReal) (r : Fin 4096) (j : Fin 2048) : EReal :=
  hiddenOf (pre x h P.wxo P.who P.bo r j) (cNewAt x h P cOld r j)

/-- The new cell state, as an array. -/
def cNew (x h c : Act.Idx → EReal) (P : Params) : Act.Idx → EReal := fun i => cNewAt x h P (c i) (i 0) (i 1)

/-- The new hidden state, as an array. -/
def hNew (x h c : Act.Idx → EReal) (P : Params) : Act.Idx → EReal := fun i => hNewAt x h P (c i) (i 0) (i 1)

end LstmCell

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.CellTile.lean ====
/-
  The body's arithmetic at one entry of a tile, at the exact instance.

  At a grid point the body holds a block of 512 rows of x and of h, a block of 2048 columns of each re-laid
  weight matrix (four gates × 512 features), the matching 2048 biases and a 512 × 512 tile of c.  Its wide
  intermediate (512 × 2048) is, at row p and column col,
      (∑ k, x(p, k) · Wx(k, col) + ∑ k, h(p, k) · Wh(k, col)) + b(col),
  and the four gates of feature q are its columns q, 512 + q, 1024 + q, 1536 + q.  So if the blocks hold the
  rows of x and h for batch row R, the four gates' weight columns and biases for feature J, and the old cell state of (R, J),
  the two stored tiles hold h'(R, J) and c'(R, J) at (p, q).
-/
import proofs.«122361_j21088289423624_2_alg».proof.Proof.Gen.KernelIdeal.Skeleton
import proofs.«122361_j21088289423624_2_alg».proof.Proof.CellSpec
import proofs.«122361_j21088289423624_2_alg».proof.Proof.LibPlainDot
import Idealize.ShloMosaic.Lib.Pipeline.Value
import Idealize.ShloMosaic.Lib.ValueLayout
import Idealize.ShloMosaic.Lib.ValueIdx

noncomputable section

namespace Cert.KernelIdeal.Tile

open Cert.KernelIdeal Cert.KernelIdeal.Gen Idealize.ShloMosaic Idealize.ShloMosaic.ValueIdx LstmCell

/-- Column of gate `g` (0 input, 1 forget, 2 candidate, 3 output) and feature `q` in the wide intermediate. -/
def gcol (g : Fin 4) (q : Fin 512) : Fin 2048 := ⟨g.val * 512 + q.val, by have := g.isLt; have := q.isLt; omega⟩

variable (xb hb : FVec Ideal S512x2048 .bf16) (wxb whb : FVec Ideal S2048x2048 .bf16) (bb : FVec Ideal S2048 .f32)
  (cb : FVec Ideal S512x512 .f32)

/-- One of the two products, at an entry: the block's row times the weight block's column. -/
theorem product_apply (l : FVec Ideal S512x2048 .bf16) (r : FVec Ideal S2048x2048 .bf16) (p : Fin 512) (col : Fin 2048) :
    matmul (F := Ideal) dot_S512x2048_S2048x2048_S512x2048_1_0_0_1_n_n none (shapeCast S512x2048 l shapeCasts_S512x2048_S512x2048)
        (shapeCast S2048x2048 r shapeCasts_S2048x2048_S2048x2048) (constant S512x2048 .f32 0x00000000#32) (ix2 p col)
      = ∑ k : Fin 2048, l (ix2 p k) * r (ix2 k col) := by
  rw [shapeCast_self, shapeCast_self]
  exact PlainDot.matmul_zero_apply (M := 512) (K := 2048) (N := 2048) none l r (ix2 p col)

/-- The bias row broadcast down the block, at an entry. -/
theorem bias_apply (p : Fin 512) (col : Fin 2048) :
    broadcastTo S512x2048 (shapeCast S1x2048 (shapeCast S2048 bb shapeCasts_S2048_S2048) shapeCasts_S2048_S1x2048)
        broadcasts_S1x2048_S512x2048 (ix2 p col) = bb (ix1 col) := by
  rw [shapeCast_self]
  exact (broadcastTo_1b_ab_apply _ _ p col).trans (shapeCast_a_1a_apply _ _ 0 col)

/-- The wide intermediate at row `p`, column `col`. -/
theorem wide_apply (p : Fin 512) (col : Fin 2048) :
    k0_pay1 (F := Ideal) xb wxb hb whb bb (ix2 p col)
      = ((∑ k : Fin 2048, xb (ix2 p k) * wxb (ix2 k col)) + ∑ k : Fin 2048, hb (ix2 p k) * whb (ix2 k col)) + bb (ix1 col) := by
  unfold k0_pay1
  exact congrArg₂ (· + ·) (congrArg₂ (· + ·) (product_apply xb wxb p col) (product_apply hb whb p col)) (bias_apply bb p col)

/-- Gate `g`'s slice of the wide intermediate, at (p, q), is its column `gcol g q`. -/
theorem slice_apply (X : (⟨2, ![512, 2048]⟩ : Shape).Idx → EReal) (o : Nat) (h : (⟨2, ![512, 2048]⟩ : Shape).Slices ![0, o] ⟨2, ![512, 512]⟩)
    (g : Fin 4) (ho : o = g.val * 512) (p q : Fin 512) :
    extractStridedSlice ⟨2, ![512, 512]⟩ ![0, o] X h (ix2 p q) = X (ix2 p (gcol g q)) :=
  slice2_axis1_apply o X h p q (gcol g q) (by rw [ho]; rfl)

/-- The c' tile at (p, q), over the wide intermediate's three columns it reads. -/
theorem cTile_apply (p q : Fin 512) :
    k0_pay2 (F := Ideal) xb wxb hb whb bb cb (ix2 p q)
      = cellOf (k0_pay1 (F := Ideal) xb wxb hb whb bb (ix2 p (gcol 0 q))) (k0_pay1 (F := Ideal) xb wxb hb whb bb (ix2 p (gcol 1 q)))
          (k0_pay1 (F := Ideal) xb wxb hb whb bb (ix2 p (gcol 2 q))) (cb (ix2 p q)) := by
  have s0 := slice_apply (k0_pay1 (F := Ideal) xb wxb hb whb bb) 0 slices_S512x2048_o0_0_S512x512 0 rfl p q
  have s1 := slice_apply (k0_pay1 (F := Ideal) xb wxb hb whb bb) 512 slices_S512x2048_o0_512_S512x512 1 rfl p q
  have s2 := slice_apply (k0_pay1 (F := Ideal) xb wxb hb whb bb) 1024 slices_S512x2048_o0_1024_S512x512 2 rfl p q
  unfold k0_pay2 cellOf
  rw [← s0, ← s1, ← s2]
  rfl

/-- The h' tile at (p, q), over the output gate's column and the c' tile. -/
theorem hTile_apply (p q : Fin 512) :
    k0_pay3 (F := Ideal) xb wxb hb whb bb cb (ix2 p q)
      = hiddenOf (k0_pay1 (F := Ideal) xb wxb hb whb bb (ix2 p (gcol 3 q))) (k0_pay2 (F := Ideal) xb wxb hb whb bb cb (ix2 p q)) := by
  have s3 := slice_apply (k0_pay1 (F := Ideal) xb wxb hb whb bb) 1536 slices_S512x2048_o0_1536_S512x512 3 rfl p q
  unfold k0_pay3 hiddenOf
  rw [← s3]
  rfl

/-! ## The tiles against the cell step -/

section Cell

variable (X H : Act.Idx → EReal) (cOld : EReal) (WX WH : Fin 4 → Wt.Idx → EReal) (B : Fin 4 → Bs.Idx → EReal)
  (R : Fin 4096) (J : Fin 2048) (p q : Fin 512)
  (hx : ∀ k : Fin 2048, xb (ix2 p k) = X (ix2 R k)) (hh : ∀ k : Fin 2048, hb (ix2 p k) = H (ix2 R k))
  (hwx : ∀ (g : Fin 4) (k : Fin 2048), wxb (ix2 k (gcol g q)) = WX g (ix2 k J))
  (hwh : ∀ (g : Fin 4) (k : Fin 2048), whb (ix2 k (gcol g q)) = WH g (ix2 k J))
  (hbias : ∀ g : Fin 4, bb (ix1 (gcol g q)) = B g (ix1 J))

include hx hh hwx hwh hbias in
/-- Gate `g`'s column of the wide intermediate is that gate's pre-activation at (R, J). -/
theorem gate_eq (g : Fin 4) :
    k0_pay1 (F := Ideal) xb wxb hb whb bb (ix2 p (gcol g q)) = pre X H (WX g) (WH g) (B g) R J := by
  rw [wide_apply, hbias g]
  unfold pre
  refine congrArg₂ (· + ·) (congrArg₂ (· + ·) ?_ ?_) rfl
  · exact Finset.sum_congr rfl fun k _ => by rw [hx k, hwx g k]
  · exact Finset.sum_congr rfl fun k _ => by rw [hh k, hwh g k]

variable (hc : cb (ix2 p q) = cOld)

include hx hh hwx hwh hbias hc in
/-- The c' tile holds the new cell state of (R, J). -/
theorem cTile_eq :
    k0_pay2 (F := Ideal) xb wxb hb whb bb cb (ix2 p q)
      = cellOf (pre X H (WX 0) (WH 0) (B 0) R J) (pre X H (WX 1) (WH 1) (B 1) R J) (pre X H (WX 2) (WH 2) (B 2) R J) cOld := by
  rw [cTile_apply, gate_eq xb hb wxb whb bb X H WX WH B R J p q hx hh hwx hwh hbias 0,
    gate_eq xb hb wxb whb bb X H WX WH B R J p q hx hh hwx hwh hbias 1,
    gate_eq xb hb wxb whb bb X H WX WH B R J p q hx hh hwx hwh hbias 2, hc]

include hx hh hwx hwh hbias hc in
/-- The h' tile holds the new hidden state of (R, J). -/
theorem hTile_eq :
    k0_pay3 (F := Ideal) xb wxb hb whb bb cb (ix2 p q)
      = hiddenOf (pre X H (WX 3) (WH 3) (B 3) R J)
          (cellOf (pre X H (WX 0) (WH 0) (B 0) R J) (pre X H (WX 1) (WH 1) (B 1) R J) (pre X H (WX 2) (WH 2) (B 2) R J) cOld) := by
  rw [hTile_apply, gate_eq xb hb wxb whb bb X H WX WH B R J p q hx hh hwx hwh hbias 3,
    cTile_eq xb hb wxb whb bb cb X H cOld WX WH B R J p q hx hh hwx hwh hbias hc]

end Cell

end Cert.KernelIdeal.Tile

end
-- ==== Proof.CellArrays.lean ====
/-
  From tiles to arrays: what the kernel program's two results hold when it ends.

  Grid point (n, i) holds rows i · 512 … of x and h, the re-laid weight columns n · 2048 … (which are, gate by
  gate, the original columns n · 512 …) and the c tile at block (i, n), and stores the h' and c' tiles at block
  (i, n).  So the tile entry (p, q) is the cell step at batch row i · 512 + p and feature n · 512 + q; the 32
  blocks tile the 4096 × 2048 arrays; hence both results end at the cell step's arrays, entry for entry.
-/
import proofs.«122361_j21088289423624_2_alg».proof.Proof.CellFrameIdeal
import proofs.«122361_j21088289423624_2_alg».proof.Proof.CellEntry
import proofs.«122361_j21088289423624_2_alg».proof.Proof.CellTile
import Idealize.ShloMosaic.Lib.Pipeline.Value

set_option maxRecDepth 16384

noncomputable section

namespace Cert.KernelIdeal.Arrays

open Cert.KernelIdeal Cert.KernelIdeal.Gen Cert.KernelIdeal.Cell Cert.KernelIdeal.Entry Cert.KernelIdeal.Tile
open Idealize.ShloMosaic Idealize.ShloMosaic.TcCoe Idealize.SL.Sem Idealize.ShloMosaic.ValueIdx LstmCell
open Idealize.ShloMosaic.Pipeline (Dat)

variable (m : (ℓ : Loc nD τ sig) → Buf (Elt Ideal) ℓ) (ρ : Dev nD → PrngReg)

/-- The parameters in the roles the kernel program gives its arguments. -/
def params (c : Dev nD) : Params where
  wxi := m ((c : Thread nD τ).loc main_arg3)
  whi := m ((c : Thread nD τ).loc main_arg4)
  bi := m ((c : Thread nD τ).loc main_arg11)
  wxf := m ((c : Thread nD τ).loc main_arg5)
  whf := m ((c : Thread nD τ).loc main_arg6)
  bf := m ((c : Thread nD τ).loc main_arg12)
  wxc := m ((c : Thread nD τ).loc main_arg9)
  whc := m ((c : Thread nD τ).loc main_arg10)
  bc := m ((c : Thread nD τ).loc main_arg14)
  wxo := m ((c : Thread nD τ).loc main_arg7)
  who := m ((c : Thread nD τ).loc main_arg8)
  bo := m ((c : Thread nD τ).loc main_arg13)

/-- The four gates' arrays in the order the host operations join them: input, forget, candidate, output. -/
def WX (c : Dev nD) : Fin 4 → Wt.Idx → EReal := ![(m ((c : Thread nD τ).loc main_arg3)), (m ((c : Thread nD τ).loc main_arg5)), (m ((c : Thread nD τ).loc main_arg9)), (m ((c : Thread nD τ).loc main_arg7))]
def WH (c : Dev nD) : Fin 4 → Wt.Idx → EReal := ![(m ((c : Thread nD τ).loc main_arg4)), (m ((c : Thread nD τ).loc main_arg6)), (m ((c : Thread nD τ).loc main_arg10)), (m ((c : Thread nD τ).loc main_arg8))]
def B (c : Dev nD) : Fin 4 → Bs.Idx → EReal := ![(m ((c : Thread nD τ).loc main_arg11)), (m ((c : Thread nD τ).loc main_arg12)), (m ((c : Thread nD τ).loc main_arg14)), (m ((c : Thread nD τ).loc main_arg13))]

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 32 grid points: x, h and c move with the output's row block, the weights,
    the bias and c with its column block; the output's block indices stay in range. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = win0_6.index t (1 : Fin 2)
    ∧ win0_3.index t (0 : Fin 2) = 0 ∧ win0_3.index t (1 : Fin 2) = win0_6.index t (1 : Fin 2)
    ∧ win0_4.index t (0 : Fin 1) = win0_6.index t (1 : Fin 2)
    ∧ win0_5.index t (0 : Fin 2) = win0_6.index t (0 : Fin 2) ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) ≤ 7 ∧ win0_6.index t (1 : Fin 2) ≤ 3 :=
  (by decide +kernel : ∀ t : Fin grid0.N, _)

/-- Every block of the 8 × 4 tiling is some point's. -/
theorem idx_onto : ∀ (q0 : Fin 8) (q1 : Fin 4), ∃ t : Fin cfg0.N, win0_6.index t = ![q0.val, q1.val] :=
  (by decide +kernel : ∀ (q0 : Fin 8) (q1 : Fin 4), ∃ t : Fin grid0.N, win0_6.index t = ![q0.val, q1.val])

/-! ## The input blocks at a point, as entries of the arguments -/

section Point

variable (c : Dev nD) (t : Fin cfg0.N)

/-- The x block's row p is row I · 512 + p of x. -/
theorem x_at (I : ℕ) (h0 : win0_0.index t (0 : Fin 2) = I) (h1 : win0_0.index t (1 : Fin 2) = 0) (p : Fin 512) (k : Fin 2048)
    (R : Fin 4096) (hR : R.val = I * 512 + p.val) :
    iblk m c 0 t (ix2 p k) = (m ((c : Thread nD τ).loc main_arg0)) (ix2 R k) := by
  show entry m c main_v32 (((cfg0.win 0).blk t).view.emb (ix2 p k)) = _
  refine (congrFun (entry_x m c) _).trans ?_
  refine (truncf_apply (ψ := .bf16) _ bitsLt_bf16_f32 _).trans ?_
  refine congrArg (m ((c : Thread nD τ).loc main_arg0)) (funext fun a => Fin.ext ?_)
  match a with
  | ⟨0, _⟩ => show win0_0.index t (0 : Fin 2) * 512 + 1 * p.val = R.val; omega
  | ⟨1, _⟩ => show win0_0.index t (1 : Fin 2) * 2048 + 1 * k.val = k.val; omega

/-- The h block's row p is row I · 512 + p of h. -/
theorem h_at (I : ℕ) (h0 : win0_1.index t (0 : Fin 2) = I) (h1 : win0_1.index t (1 : Fin 2) = 0) (p : Fin 512) (k : Fin 2048)
    (R : Fin 4096) (hR : R.val = I * 512 + p.val) :
    iblk m c 1 t (ix2 p k) = (m ((c : Thread nD τ).loc main_arg1)) (ix2 R k) := by
  show entry m c main_v33 (((cfg0.win 1).blk t).view.emb (ix2 p k)) = _
  refine (congrFun (entry_h m c) _).trans ?_
  refine (truncf_apply (ψ := .bf16) _ bitsLt_bf16_f32 _).trans ?_
  refine congrArg (m ((c : Thread nD τ).loc main_arg1)) (funext fun a => Fin.ext ?_)
  match a with
  | ⟨0, _⟩ => show win0_1.index t (0 : Fin 2) * 512 + 1 * p.val = R.val; omega
  | ⟨1, _⟩ => show win0_1.index t (1 : Fin 2) * 2048 + 1 * k.val = k.val; omega

/-- The x-side weight block's column of gate g, feature q, is column N · 512 + q of that gate's matrix. -/
theorem wx_at (N : ℕ) (hN : N < 4) (h0 : win0_2.index t (0 : Fin 2) = 0) (h1 : win0_2.index t (1 : Fin 2) = N) (g : Fin 4) (k : Fin 2048)
    (q : Fin 512) (J : Fin 2048) (hJ : J.val = N * 512 + q.val) :
    iblk m c 2 t (ix2 k (gcol g q)) = WX m c g (ix2 k J) := by
  show entry m c main_v10 (((cfg0.win 2).blk t).view.emb (ix2 k (gcol g q))) = _
  refine (congrFun (entry_wx m c) _).trans ?_
  have hq := q.isLt
  have hg := g.isLt
  have e : ((cfg0.win 2).blk t).view.emb (ix2 k (gcol g q)) = ix2 k (⟨N * 2048 + g.val * 512 + q.val, by omega⟩ : Fin 8192) :=
    funext fun a => Fin.ext (by
      match a with
      | ⟨0, _⟩ => show win0_2.index t (0 : Fin 2) * 2048 + 1 * k.val = k.val; omega
      | ⟨1, _⟩ => show win0_2.index t (1 : Fin 2) * 2048 + 1 * (g.val * 512 + q.val) = N * 2048 + g.val * 512 + q.val; omega)
  exact (congrArg _ e).trans (relaidW_apply (WX m c) k ⟨N, hN⟩ g q _ rfl J hJ)

/-- The same on the h side. -/
theorem wh_at (N : ℕ) (hN : N < 4) (h0 : win0_3.index t (0 : Fin 2) = 0) (h1 : win0_3.index t (1 : Fin 2) = N) (g : Fin 4) (k : Fin 2048)
    (q : Fin 512) (J : Fin 2048) (hJ : J.val = N * 512 + q.val) :
    iblk m c 3 t (ix2 k (gcol g q)) = WH m c g (ix2 k J) := by
  show entry m c main_v21 (((cfg0.win 3).blk t).view.emb (ix2 k (gcol g q))) = _
  refine (congrFun (entry_wh m c) _).trans ?_
  have hq := q.isLt
  have hg := g.isLt
  have e : ((cfg0.win 3).blk t).view.emb (ix2 k (gcol g q)) = ix2 k (⟨N * 2048 + g.val * 512 + q.val, by omega⟩ : Fin 8192) :=
    funext fun a => Fin.ext (by
      match a with
      | ⟨0, _⟩ => show win0_3.index t (0 : Fin 2) * 2048 + 1 * k.val = k.val; omega
      | ⟨1, _⟩ => show win0_3.index t (1 : Fin 2) * 2048 + 1 * (g.val * 512 + q.val) = N * 2048 + g.val * 512 + q.val; omega)
  exact (congrArg _ e).trans (relaidW_apply (WH m c) k ⟨N, hN⟩ g q _ rfl J hJ)

/-- The bias block's entry of gate g, feature q, is entry N · 512 + q of that gate's bias. -/
theorem b_at (N : ℕ) (hN : N < 4) (h0 : win0_4.index t (0 : Fin 1) = N) (g : Fin 4) (q : Fin 512) (J : Fin 2048) (hJ : J.val = N * 512 + q.val) :
    iblk m c 4 t (ix1 (gcol g q)) = B m c g (ix1 J) := by
  show entry m c main_v31 (((cfg0.win 4).blk t).view.emb (ix1 (gcol g q))) = _
  refine (congrFun (entry_b m c) _).trans ?_
  have hq := q.isLt
  have hg := g.isLt
  have e : ((cfg0.win 4).blk t).view.emb (ix1 (gcol g q)) = ix1 (⟨N * 2048 + g.val * 512 + q.val, by omega⟩ : Fin 8192) :=
    funext fun a => Fin.ext (by
      match a with
      | ⟨0, _⟩ => show win0_4.index t (0 : Fin 1) * 2048 + 1 * (g.val * 512 + q.val) = N * 2048 + g.val * 512 + q.val; omega)
  exact (congrArg _ e).trans (relaidB_apply (B m c) ⟨N, hN⟩ g q _ rfl J hJ)

/-- The c tile's entry (p, q) is c at the array index `i` that the tile's block puts (p, q) at. -/
theorem c_at (p q : Fin 512) (i : S4096x2048.Idx) (h0 : win0_5.index t (0 : Fin 2) * 512 + 1 * p.val = (i 0).val)
    (h1 : win0_5.index t (1 : Fin 2) * 512 + 1 * q.val = (i 1).val) :
    iblk m c 5 t (ix2 p q) = (m ((c : Thread nD τ).loc main_arg2)) i := by
  show entry m c main_arg2 (((cfg0.win 5).blk t).view.emb (ix2 p q)) = _
  refine (congrFun (entry_main_arg2 m c) _).trans ?_
  refine congrArg (m ((c : Thread nD τ).loc main_arg2)) (funext fun a => Fin.ext ?_)
  match a with
  | ⟨0, _⟩ => exact h0
  | ⟨1, _⟩ => exact h1

end Point

/-! ## What each point writes back -/

/-- Point `t` writes back, into the first result, block `t` of the new hidden state. -/
theorem flushed6_eq (c : Dev nD) (t : Fin cfg0.N) :
    (dats m 0 c).flushed 6 t = ((cfg0.win 6).blk t).view.read (Elt Ideal) (hNew (m ((c : Thread nD τ).loc main_arg0)) (m ((c : Thread nD τ).loc main_arg1)) (m ((c : Thread nD τ).loc main_arg2)) (params m c)) := by
  show (cfg0.win 6).cut (grid0.coords t) ((dats m 0 c).after 6 t) = _
  rw [after6]
  unfold hTile
  rw [View.canon_unit_zero hz2]
  simp only [View.ld_unit_zero (S := S512x2048) hz2, View.ld_unit_zero (S := S2048x2048) hz2, View.ld_unit_zero (S := S2048) hz1,
    View.ld_unit_zero (S := S512x512) hz2]
  obtain ⟨e00, e01, e10, e11, e20, e21, e30, e31, e40, e50, e51, e70, e71, b0, b1⟩ := idx_facts t
  funext y
  obtain ⟨p, q, rfl⟩ : ∃ (p q : Fin 512), y = ix2 p q := ⟨y 0, y 1, @eq_ix2 512 512 y⟩
  have hp := p.isLt
  have hq := q.isLt
  have hR : win0_6.index t (0 : Fin 2) * 512 + p.val < 4096 := by omega
  have hJ : win0_6.index t (1 : Fin 2) * 512 + q.val < 2048 := by omega
  have hN : win0_6.index t (1 : Fin 2) < 4 := by omega
  refine (hTile_eq (iblk m c 0 t) (iblk m c 1 t) (iblk m c 2 t) (iblk m c 3 t) (iblk m c 4 t) (iblk m c 5 t)
    (m ((c : Thread nD τ).loc main_arg0)) (m ((c : Thread nD τ).loc main_arg1)) ((m ((c : Thread nD τ).loc main_arg2)) (((cfg0.win 6).blk t).view.emb (ix2 p q)))
    (WX m c) (WH m c) (B m c) ⟨_, hR⟩ ⟨_, hJ⟩ p q
    (fun k => x_at m c t _ e00 e01 p k ⟨_, hR⟩ rfl) (fun k => h_at m c t _ e10 e11 p k ⟨_, hR⟩ rfl)
    (fun g k => wx_at m c t _ hN e20 e21 g k q ⟨_, hJ⟩ rfl) (fun g k => wh_at m c t _ hN e30 e31 g k q ⟨_, hJ⟩ rfl)
    (fun g => b_at m c t _ hN e40 g q ⟨_, hJ⟩ rfl)
    (c_at m c t p q (((cfg0.win 6).blk t).view.emb (ix2 p q))
      (by show win0_5.index t (0 : Fin 2) * 512 + 1 * p.val = win0_6.index t (0 : Fin 2) * 512 + 1 * p.val; omega)
      (by show win0_5.index t (1 : Fin 2) * 512 + 1 * q.val = win0_6.index t (1 : Fin 2) * 512 + 1 * q.val; omega))).trans ?_
  show _ = hNewAt (m ((c : Thread nD τ).loc main_arg0)) (m ((c : Thread nD τ).loc main_arg1)) (params m c) ((m ((c : Thread nD τ).loc main_arg2)) (((cfg0.win 6).blk t).view.emb (ix2 p q)))
    ((((cfg0.win 6).blk t).view.emb (ix2 p q)) 0) ((((cfg0.win 6).blk t).view.emb (ix2 p q)) 1)
  have r0 : ((((cfg0.win 6).blk t).view.emb (ix2 p q)) 0 : Fin 4096) = ⟨_, hR⟩ := Fin.ext (by
    show win0_6.index t (0 : Fin 2) * 512 + 1 * p.val = win0_6.index t (0 : Fin 2) * 512 + p.val; omega)
  have r1 : ((((cfg0.win 6).blk t).view.emb (ix2 p q)) 1 : Fin 2048) = ⟨_, hJ⟩ := Fin.ext (by
    show win0_6.index t (1 : Fin 2) * 512 + 1 * q.val = win0_6.index t (1 : Fin 2) * 512 + q.val; omega)
  rw [r0, r1]
  rfl

/-- Point `t` writes back, into the second result, block `t` of the new cell state. -/
theorem flushed7_eq (c : Dev nD) (t : Fin cfg0.N) :
    (dats m 0 c).flushed 7 t = ((cfg0.win 7).blk t).view.read (Elt Ideal) (cNew (m ((c : Thread nD τ).loc main_arg0)) (m ((c : Thread nD τ).loc main_arg1)) (m ((c : Thread nD τ).loc main_arg2)) (params m c)) := by
  show (cfg0.win 7).cut (grid0.coords t) ((dats m 0 c).after 7 t) = _
  rw [after7]
  unfold cTile
  rw [View.canon_unit_zero hz2]
  simp only [View.ld_unit_zero (S := S512x2048) hz2, View.ld_unit_zero (S := S2048x2048) hz2, View.ld_unit_zero (S := S2048) hz1,
    View.ld_unit_zero (S := S512x512) hz2]
  obtain ⟨e00, e01, e10, e11, e20, e21, e30, e31, e40, e50, e51, e70, e71, b0, b1⟩ := idx_facts t
  funext y
  obtain ⟨p, q, rfl⟩ : ∃ (p q : Fin 512), y = ix2 p q := ⟨y 0, y 1, @eq_ix2 512 512 y⟩
  have hp := p.isLt
  have hq := q.isLt
  have hR : win0_6.index t (0 : Fin 2) * 512 + p.val < 4096 := by omega
  have hJ : win0_6.index t (1 : Fin 2) * 512 + q.val < 2048 := by omega
  have hN : win0_6.index t (1 : Fin 2) < 4 := by omega
  refine (cTile_eq (iblk m c 0 t) (iblk m c 1 t) (iblk m c 2 t) (iblk m c 3 t) (iblk m c 4 t) (iblk m c 5 t)
    (m ((c : Thread nD τ).loc main_arg0)) (m ((c : Thread nD τ).loc main_arg1)) ((m ((c : Thread nD τ).loc main_arg2)) (((cfg0.win 7).blk t).view.emb (ix2 p q)))
    (WX m c) (WH m c) (B m c) ⟨_, hR⟩ ⟨_, hJ⟩ p q
    (fun k => x_at m c t _ e00 e01 p k ⟨_, hR⟩ rfl) (fun k => h_at m c t _ e10 e11 p k ⟨_, hR⟩ rfl)
    (fun g k => wx_at m c t _ hN e20 e21 g k q ⟨_, hJ⟩ rfl) (fun g k => wh_at m c t _ hN e30 e31 g k q ⟨_, hJ⟩ rfl)
    (fun g => b_at m c t _ hN e40 g q ⟨_, hJ⟩ rfl)
    (c_at m c t p q (((cfg0.win 7).blk t).view.emb (ix2 p q))
      (by show win0_5.index t (0 : Fin 2) * 512 + 1 * p.val = win0_7.index t (0 : Fin 2) * 512 + 1 * p.val; omega)
      (by show win0_5.index t (1 : Fin 2) * 512 + 1 * q.val = win0_7.index t (1 : Fin 2) * 512 + 1 * q.val; omega))).trans ?_
  show _ = cNewAt (m ((c : Thread nD τ).loc main_arg0)) (m ((c : Thread nD τ).loc main_arg1)) (params m c) ((m ((c : Thread nD τ).loc main_arg2)) (((cfg0.win 7).blk t).view.emb (ix2 p q)))
    ((((cfg0.win 7).blk t).view.emb (ix2 p q)) 0) ((((cfg0.win 7).blk t).view.emb (ix2 p q)) 1)
  have r0 : ((((cfg0.win 7).blk t).view.emb (ix2 p q)) 0 : Fin 4096) = ⟨_, hR⟩ := Fin.ext (by
    show win0_7.index t (0 : Fin 2) * 512 + 1 * p.val = win0_6.index t (0 : Fin 2) * 512 + p.val; omega)
  have r1 : ((((cfg0.win 7).blk t).view.emb (ix2 p q)) 1 : Fin 2048) = ⟨_, hJ⟩ := Fin.ext (by
    show win0_7.index t (1 : Fin 2) * 512 + 1 * q.val = win0_6.index t (1 : Fin 2) * 512 + q.val; omega)
  rw [r0, r1]
  rfl

/-! ## The blocks tile the arrays -/

/-- An index of the array is in point `t`'s block iff each coordinate is in the block's range on its axis. -/
theorem mem_blk6 (t : Fin cfg0.N) (i : S4096x2048.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v34_0).slice (win0_6.rect t)).set ↔ _
  rw [View.set_slice_whole, Rect.mem_set_unit]
  exact Iff.rfl

/-- The 32 blocks tile the array: entry (r, j) lies in the block of the point with row block r / 512 and column block j / 512. -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 512, by omega⟩ ⟨(i 1).val / 512, by omega⟩
  have q0 : win0_6.index t (0 : Fin 2) = (i 0).val / 512 := congrFun ht 0
  have q1 : win0_6.index t (1 : Fin 2) = (i 1).val / 512 := congrFun ht 1
  obtain ⟨e00, e01, e10, e11, e20, e21, e30, e31, e40, e50, e51, e70, e71, b0, b1⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- An index of the array is in point `t`'s block iff each coordinate is in the block's range on its axis. -/
theorem mem_blk7 (t : Fin cfg0.N) (i : S4096x2048.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v34_1).slice (win0_7.rect t)).set ↔ _
  rw [View.set_slice_whole, Rect.mem_set_unit]
  exact Iff.rfl

/-- The 32 blocks tile the array: entry (r, j) lies in the block of the point with row block r / 512 and column block j / 512. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 512, by omega⟩
  have q0 : win0_6.index t (0 : Fin 2) = (i 0).val / 512 := congrFun ht 0
  have q1 : win0_6.index t (1 : Fin 2) = (i 1).val / 512 := congrFun ht 1
  obtain ⟨e00, e01, e10, e11, e20, e21, e30, e31, e40, e50, e51, e70, e71, b0, b1⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-! ## The arrays after the run -/

theorem final6 (c : Dev nD) : (dats m 0 c).arrAt 6 cfg0.N = hNew (m ((c : Thread nD τ).loc main_arg0)) (m ((c : Thread nD τ).loc main_arg1)) (m ((c : Thread nD τ).loc main_arg2)) (params m c) :=
  (dats m 0 c).arrAt_eq_of_cover 6 (hNew (m ((c : Thread nD τ).loc main_arg0)) (m ((c : Thread nD τ).loc main_arg1)) (m ((c : Thread nD τ).loc main_arg2)) (params m c)) (fun t _ => flushed6_eq m c t) cover6

theorem final7 (c : Dev nD) : (dats m 0 c).arrAt 7 cfg0.N = cNew (m ((c : Thread nD τ).loc main_arg0)) (m ((c : Thread nD τ).loc main_arg1)) (m ((c : Thread nD τ).loc main_arg2)) (params m c) :=
  (dats m 0 c).arrAt_eq_of_cover 7 (cNew (m ((c : Thread nD τ).loc main_arg0)) (m ((c : Thread nD τ).loc main_arg1)) (m ((c : Thread nD τ).loc main_arg2)) (params m c)) (fun t _ => flushed7_eq m c t) cover7

/-- The kernel program's run at the exact instance: the first result ends at the new hidden state, the second at the new
    cell state, the fifteen arguments as launched. -/
theorem run : θ_run defs (onTc (τ := τ) (main (F := Ideal))) ⟨m, fun _ => 0, ρ⟩ fun r => ∀ c : Dev nD,
      r.2.mem ((c : Thread nD τ).loc main_v34_0) = hNew (m ((c : Thread nD τ).loc main_arg0)) (m ((c : Thread nD τ).loc main_arg1)) (m ((c : Thread nD τ).loc main_arg2)) (params m c)
      ∧ r.2.mem ((c : Thread nD τ).loc main_v34_1) = cNew (m ((c : Thread nD τ).loc main_arg0)) (m ((c : Thread nD τ).loc main_arg1)) (m ((c : Thread nD τ).loc main_arg2)) (params m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 6).trans (final6 m c), ((h c).1 7).trans (final7 m c),
      ((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 5).trans (((dats m 0 c).arrAt_in 5 rfl _).trans ((A_eq m c 5).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c),
      ((h c).2 main_arg14 (Pipeline.mem_restRefs_of main_arg14 (by decide) (by decide))).trans (entry_main_arg14 m c)⟩)
    (run_main m ρ)

end Cert.KernelIdeal.Arrays

end
-- ==== Proof.RefCell.lean ====
/-
  The reference LSTM cell read entry by entry.

  The reference joins each side's four gate matrices along the feature axis into one 2048 × 8192 matrix (gate g
  in columns g · 2048 …), does two large products, adds the joined bias, and cuts the 4096 × 8192 result back into
  the four gates.  Column g · 2048 + j of the wide result is therefore gate g's pre-activation at feature j; the
  logistic function is spelt 1 / (1 + e^(−z)), which is what the logistic function is on the extended reals.
-/
import proofs.«122361_j21088289423624_2_alg».proof.Proof.Gen.ReferenceIdeal.Read
import proofs.«122361_j21088289423624_2_alg».proof.Proof.CellSpec
import proofs.«122361_j21088289423624_2_alg».proof.Proof.LibConcatFour

noncomputable section

namespace Cert.ReferenceIdeal.Cell

open Cert.ReferenceIdeal Cert.ReferenceIdeal.Gen Cert.ReferenceIdeal.Read
open Idealize.ShloMosaic Idealize.ShloMosaic.ValueIdx LstmCell

/-- The float word of 1.0 denotes 1. -/
theorem one_word : Ideal.ofBits .f32 0x3F800000#32 = 1 := by
  simp [Ideal.ofBits, Ideal.ieee, -EReal.coe_mul]; norm_num

/-- 1 / (1 + e^(−z)), in the host's operations, is the logistic function. -/
theorem logistic_spelt (z : Ideal .f32) :
    FloatOps.hostDivf (FloatOps.ofBits .f32 0x3F800000#32 : Ideal .f32)
        (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.logistic z
  rw [one_word]
  rfl

variable (x0 x1 x2 : (⟨S4096x2048, .f32⟩ : BufTy).Contents (Elt Ideal))
  (x3 x4 x5 x6 x7 x8 x9 x10 : (⟨S2048x2048, .f32⟩ : BufTy).Contents (Elt Ideal))
  (x11 x12 x13 x14 : (⟨S2048, .f32⟩ : BufTy).Contents (Elt Ideal))

/-- The parameters in the roles the reference gives its arguments. -/
def params : Params where
  wxi := x3
  whi := x4
  bi := x11
  wxf := x5
  whf := x6
  bf := x12
  wxc := x9
  whc := x10
  bc := x14
  wxo := x7
  who := x8
  bo := x13

/-- Column g · 2048 + j of the wide result is gate g's pre-activation at feature j. -/
theorem wide_apply (i : S4096x8192.Idx) (g : Fin 4) (j : Fin 2048) (hj : (i 1).val = g.val * 2048 + j.val) :
    val_main_v8 (F := Ideal) x0 x1 x3 x4 x5 x6 x7 x8 x9 x10 x11 x12 x13 x14 i
      = pre x0 x1 (![x3, x5, x9, x7] g) (![x4, x6, x10, x8] g) (![x11, x12, x14, x13] g) (i 0) j := by
  rw [val_main_v8_apply, val_main_v5_apply, val_main_v3_apply, val_main_v4_apply, val_main_v7_apply, val_main_v6_apply]
  unfold pre
  refine congrArg₂ (· + ·) (congrArg₂ (· + ·) (Finset.sum_congr rfl fun k _ => ?_) (Finset.sum_congr rfl fun k _ => ?_)) ?_
  · refine congrArg₂ (· * ·) (congrArg x0 (funext fun a => Fin.ext (by
      match a with
      | ⟨0, _⟩ => rfl
      | ⟨1, _⟩ => rfl))) ?_
    unfold val_main_v0
    exact ConcatFour.apply (t := S2048x8192) (s := S2048x2048) (1 : Fin 2) ![x3, x5, x9, x7] _ rfl 2048 rfl (ridx_main_v3 i k) g (ix2 k j)
      (fun b hb => by
        match b, hb with
        | ⟨0, _⟩, _ => rfl
        | ⟨1, _⟩, hb => exact absurd rfl hb)
      (by show g.val * 2048 + j.val = (i 1).val; omega)
  · refine congrArg₂ (· * ·) (congrArg x1 (funext fun a => Fin.ext (by
      match a with
      | ⟨0, _⟩ => rfl
      | ⟨1, _⟩ => rfl))) ?_
    unfold val_main_v1
    exact ConcatFour.apply (t := S2048x8192) (s := S2048x2048) (1 : Fin 2) ![x4, x6, x10, x8] _ rfl 2048 rfl (ridx_main_v4 i k) g (ix2 k j)
      (fun b hb => by
        match b, hb with
        | ⟨0, _⟩, _ => rfl
        | ⟨1, _⟩, hb => exact absurd rfl hb)
      (by show g.val * 2048 + j.val = (i 1).val; omega)
  · unfold val_main_v2
    exact ConcatFour.apply (t := S8192) (s := S2048) (0 : Fin 1) ![x11, x12, x14, x13] _ rfl 2048 rfl (idx_main_v6 (idx_main_v7 i)) g (ix1 j)
      (fun b hb => by
        match b, hb with
        | ⟨0, _⟩, hb => exact absurd rfl hb)
      (by show g.val * 2048 + j.val = (i 1).val; omega)

/-- The four gates, cut out of the wide result. -/
theorem gate_i (i : S4096x2048.Idx) : val_main_v9 (F := Ideal) x0 x1 x3 x4 x5 x6 x7 x8 x9 x10 x11 x12 x13 x14 i = pre x0 x1 x3 x4 x11 (i 0) (i 1) := by
  rw [val_main_v9_apply]
  exact wide_apply x0 x1 x3 x4 x5 x6 x7 x8 x9 x10 x11 x12 x13 x14 (idx_main_v9 i) 0 (i 1) (by show (i 1).val = 0 * 2048 + (i 1).val; omega)
theorem gate_f (i : S4096x2048.Idx) : val_main_v10 (F := Ideal) x0 x1 x3 x4 x5 x6 x7 x8 x9 x10 x11 x12 x13 x14 i = pre x0 x1 x5 x6 x12 (i 0) (i 1) := by
  rw [val_main_v10_apply]
  exact wide_apply x0 x1 x3 x4 x5 x6 x7 x8 x9 x10 x11 x12 x13 x14 (idx_main_v10 i) 1 (i 1) (by show 2048 + (i 1).val = 1 * 2048 + (i 1).val; omega)
theorem gate_c (i : S4096x2048.Idx) : val_main_v11 (F := Ideal) x0 x1 x3 x4 x5 x6 x7 x8 x9 x10 x11 x12 x13 x14 i = pre x0 x1 x9 x10 x14 (i 0) (i 1) := by
  rw [val_main_v11_apply]
  exact wide_apply x0 x1 x3 x4 x5 x6 x7 x8 x9 x10 x11 x12 x13 x14 (idx_main_v11 i) 2 (i 1) (by show 4096 + (i 1).val = 2 * 2048 + (i 1).val; omega)
theorem gate_o (i : S4096x2048.Idx) : val_main_v12 (F := Ideal) x0 x1 x3 x4 x5 x6 x7 x8 x9 x10 x11 x12 x13 x14 i = pre x0 x1 x7 x8 x13 (i 0) (i 1) := by
  rw [val_main_v12_apply]
  exact wide_apply x0 x1 x3 x4 x5 x6 x7 x8 x9 x10 x11 x12 x13 x14 (idx_main_v12 i) 3 (i 1) (by show 6144 + (i 1).val = 3 * 2048 + (i 1).val; omega)

/-- The reference's second result is the new cell state. -/
theorem cNew_eq : val_main_v34 (F := Ideal) x0 x1 x2 x3 x4 x5 x6 x7 x8 x9 x10 x11 x12 x13 x14 = cNew x0 x1 x2 (params x3 x4 x5 x6 x7 x8 x9 x10 x11 x12 x13 x14) := by
  funext i
  rw [val_main_v34_apply, val_main_v32_apply, val_main_v33_apply, val_main_v24_apply, val_main_v23_apply, val_main_cst_2_apply,
    val_main_v22_apply, val_main_v21_apply, val_main_cst_1_apply, val_main_v20_apply, val_main_v19_apply,
    val_main_v18_apply, val_main_v17_apply, val_main_cst_0_apply, val_main_v16_apply, val_main_v15_apply, val_main_cst_apply,
    val_main_v14_apply, val_main_v13_apply, val_main_v25_apply,
    logistic_spelt, logistic_spelt, gate_i, gate_f, gate_c]
  rfl

/-- The reference's first result is the new hidden state. -/
theorem hNew_eq : val_main_v36 (F := Ideal) x0 x1 x2 x3 x4 x5 x6 x7 x8 x9 x10 x11 x12 x13 x14 = hNew x0 x1 x2 (params x3 x4 x5 x6 x7 x8 x9 x10 x11 x12 x13 x14) := by
  funext i
  rw [val_main_v36_apply, val_main_v35_apply, val_main_v31_apply, val_main_v30_apply, val_main_cst_4_apply, val_main_v29_apply,
    val_main_v28_apply, val_main_cst_3_apply, val_main_v27_apply, val_main_v26_apply, logistic_spelt, gate_o,
    cNew_eq]
  rfl

end Cert.ReferenceIdeal.Cell

end
-- ==== Proof.lean ====
/-
  One LSTM cell step, fused in one tiled kernel, against the plain jnp reference.

  The kernel program re-lays the eight weight matrices and four biases gate-chunk by gate-chunk, narrows the
  float format of x, h and the weights, and runs one pipelined region over a 4 × 8 grid: at the point of
  feature chunk n and batch chunk i it multiplies 512 rows of x and of h by the chunk's 2048 re-laid columns
  (four gates × 512 features), adds the biases, applies the logistic function and tanh, and writes the 512 × 512
  tiles of the new hidden and cell states.  The reference joins the gates' matrices side by side, does two large
  products, cuts the result into the four gates, and spells the logistic function as 1 / (1 + e^(−z)).

  Over the extended reals a change of float format is the identity and the logistic function is that quotient, so
  both programs compute, for batch row r and feature j,
      z_g = (∑ k, x(r, k) · Wx_g(k, j) + ∑ k, h(r, k) · Wh_g(k, j)) + b_g(j)      for the four gates g,
      c'(r, j) = σ(z_f) · c(r, j) + σ(z_i) · tanh(z_c),      h'(r, j) = σ(z_o) · tanh(c'(r, j)),
  with the sums associated in the same way: the two results are equal entry for entry, with no appeal to the inputs
  being finite.  The kernel side is read off its frame run (each grid point's stored tiles are blocks of these two
  arrays, and the 32 blocks tile them); the reference side is its run, read one operation at a time.  The ideal
  pass rewrote nothing, so the kernel's idealization is its own text.
-/
import proofs.«122361_j21088289423624_2_alg».proof.Defs
import proofs.«122361_j21088289423624_2_alg».proof.Proof.CellFrameBits
import proofs.«122361_j21088289423624_2_alg».proof.Proof.CellFrameIdeal
import proofs.«122361_j21088289423624_2_alg».proof.Proof.CellArrays
import proofs.«122361_j21088289423624_2_alg».proof.Proof.RefCell
import proofs.«122361_j21088289423624_2_alg».proof.Proof.Gen.Kernel
import proofs.«122361_j21088289423624_2_alg».proof.Proof.Gen.KernelIdeal
import proofs.«122361_j21088289423624_2_alg».proof.Proof.Gen.ReferenceIdeal
import proofs.«122361_j21088289423624_2_alg».proof.Proof.Gen.ReferenceIdeal.Run
import proofs.«122361_j21088289423624_2_alg».proof.Proof.Gen.ReferenceIdeal.Read
import proofs.«122361_j21088289423624_2_alg».proof.Proof.Gen.Pre_finite_inputs
import Idealize.ShloMosaic.Adequacy
import Idealize.ShloMosaic.Init

noncomputable section

namespace Cert.Proof

open Idealize.ShloMosaic Idealize.SL.Sem

/-- The kernel program at the word level runs to the end and leaves its arguments as launched. -/
theorem frame_kernel : Cert.frame_Kernel := fun m ρ _ => Cert.Kernel.Cell.frame m ρ

/-- So does it at the exact instance. -/
theorem frame_ideal : Cert.frame_KernelIdeal := fun m ρ _ => Cert.KernelIdeal.Cell.frame m ρ

/-- The reference runs to the end and leaves its arguments as launched: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the fifteen arguments both programs end with the new hidden state in their first result
    and the new cell state in their second. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.Cell.hNew_eq]
    obtain ⟨a0, a1, a2, a3, a4, a5, a6, a7, a8, a9, a10, a11, a12, a13, a14⟩ := hagree c
    rw [a0, a1, a2, a3, a4, a5, a6, a7, a8, a9, a10, a11, a12, a13, a14]
    rfl
  · rw [Cert.ReferenceIdeal.Read.val_main_v34_eq, Cert.ReferenceIdeal.Cell.cNew_eq]
    obtain ⟨a0, a1, a2, a3, a4, a5, a6, a7, a8, a9, a10, a11, a12, a13, a14⟩ := hagree c
    rw [a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
